-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x64x64 : Shape := ⟨4, ![64, 32, 64, 64]⟩
abbrev S262144x288 : Shape := ⟨2, ![262144, 288]⟩
abbrev S4096x64x288 : Shape := ⟨3, ![4096, 64, 288]⟩
abbrev S_ : Shape := ⟨0, ![]⟩

class Facts : Prop where
  bcast_S_S64x32x64x64 : S_.BroadcastsInDim S64x32x64x64 (![] : Fin 0 → Fin S64x32x64x64.rank)
  reducesTo_S64x32x64x64_S_d0_1_2_3 : S64x32x64x64.ReducesTo [0, 1, 2, 3] S_
  h_S_ : 0 < S_.numel
  bcast_S_S4096x64x288 : S_.BroadcastsInDim S4096x64x288 (![] : Fin 0 → Fin S4096x64x288.rank)
  reducesTo_S4096x64x288_S_d0_1_2 : S4096x64x288.ReducesTo [0, 1, 2] S_

variable [Facts]

def fn {F : FTy → Type} [FloatOps F] (main_arg0 : FVec F S64x32x64x64 .f32) (main_arg1 : IVec S262144x288 32) (main_arg2 : FVec F S4096x64x288 .f32) : IVec S_ 1 :=
  let main_v0 : FVec F S64x32x64x64 .f32 := Host.absf main_arg0
  let main_cst : FVec F S_ .f32 := constant S_ .f32 0x7F800000#32
  let main_v1 : FVec F S64x32x64x64 .f32 := broadcastInDim S64x32x64x64 ![] bcast_S_S64x32x64x64 main_cst
  let main_v2 : IVec S64x32x64x64 1 := cmpf .olt main_v0 main_v1
  let main_c : IVec S_ 1 := constantI S_ 1 1#1
  let main_v3 : IVec S_ 1 := (fun x v => Host.reduce IntOp.andi x v reducesTo_S64x32x64x64_S_d0_1_2_3 h_S_) main_v2 main_c
  let main_v4 : FVec F S4096x64x288 .f32 := Host.absf main_arg2
  let main_cst_0 : FVec F S_ .f32 := constant S_ .f32 0x7F800000#32
  let main_v5 : FVec F S4096x64x288 .f32 := broadcastInDim S4096x64x288 ![] bcast_S_S4096x64x288 main_cst_0
  let main_v6 : IVec S4096x64x288 1 := cmpf .olt main_v4 main_v5
  let main_c_1 : IVec S_ 1 := constantI S_ 1 1#1
  let main_v7 : IVec S_ 1 := (fun x v => Host.reduce IntOp.andi x v reducesTo_S4096x64x288_S_d0_1_2 h_S_) main_v6 main_c_1
  let main_v8 : IVec S_ 1 := andi main_v3 main_v7
  main_v8
-- ==== Kernel.lean ====
abbrev S64x32x64x64 : Shape := ⟨4, ![64, 32, 64, 64]⟩
abbrev S262144x288 : Shape := ⟨2, ![262144, 288]⟩
abbrev S4096x64x288 : Shape := ⟨3, ![4096, 64, 288]⟩
abbrev S75497472 : Shape := ⟨1, ![75497472]⟩
abbrev S8388608 : Shape := ⟨1, ![8388608]⟩
abbrev S_ : Shape := ⟨0, ![]⟩
abbrev S75497472x1 : Shape := ⟨2, ![75497472, 1]⟩
abbrev S64x4096x288 : Shape := ⟨3, ![64, 4096, 288]⟩
abbrev S4096x288x64 : Shape := ⟨3, ![4096, 288, 64]⟩
abbrev S4096x64x64 : Shape := ⟨3, ![4096, 64, 64]⟩
abbrev S128x64x288 : Shape := ⟨3, ![128, 64, 288]⟩
abbrev S128x288x64 : Shape := ⟨3, ![128, 288, 64]⟩
abbrev S128x64x64 : Shape := ⟨3, ![128, 64, 64]⟩
abbrev S64x64x4096 : Shape := ⟨3, ![64, 64, 4096]⟩

abbrev nBuf : Space → Nat
  | .hbm => 20
  | .vmem => 6
  | .smem => 0
  | _ => 0

abbrev bufTy : (tb : Table) → Fin (tcTables nBuf tb) → BufTy
  | .hbm, ⟨0, _⟩ => ⟨S64x32x64x64, .f32⟩
  | .hbm, ⟨1, _⟩ => ⟨S262144x288, .i32⟩
  | .hbm, ⟨2, _⟩ => ⟨S4096x64x288, .f32⟩
  | .hbm, ⟨3, _⟩ => ⟨S75497472, .i32⟩
  | .hbm, ⟨4, _⟩ => ⟨S8388608, .f32⟩
  | .hbm, ⟨5, _⟩ => ⟨S_, .i32⟩
  | .hbm, ⟨6, _⟩ => ⟨S75497472, .i32⟩
  | .hbm, ⟨7, _⟩ => ⟨S75497472, .i1⟩
  | .hbm, ⟨8, _⟩ => ⟨S_, .i32⟩
  | .hbm, ⟨9, _⟩ => ⟨S75497472, .i32⟩
  | .hbm, ⟨10, _⟩ => ⟨S75497472, .i32⟩
  | .hbm, ⟨11, _⟩ => ⟨S75497472, .i32⟩
  | .hbm, ⟨12, _⟩ => ⟨S75497472x1, .i32⟩
  | .hbm, ⟨13, _⟩ => ⟨S75497472, .f32⟩
  | .hbm, ⟨14, _⟩ => ⟨S64x4096x288, .f32⟩
  | .hbm, ⟨15, _⟩ => ⟨S4096x288x64, .f32⟩
  | .hbm, ⟨16, _⟩ => ⟨S4096x288x64, .bf16⟩
  | .hbm, ⟨17, _⟩ => ⟨S4096x64x288, .bf16⟩
  | .hbm, ⟨18, _⟩ => ⟨S4096x64x64, .f32⟩
  | .hbm, ⟨19, _⟩ => ⟨S64x64x4096, .f32⟩
  | .local _ .vmem, ⟨0, _⟩ => ⟨S128x64x288, .bf16⟩
  | .local _ .vmem, ⟨1, _⟩ => ⟨S128x64x288, .bf16⟩
  | .local _ .vmem, ⟨2, _⟩ => ⟨S128x288x64, .bf16⟩
  | .local _ .vmem, ⟨3, _⟩ => ⟨S128x288x64, .bf16⟩
  | .local _ .vmem, ⟨4, _⟩ => ⟨S128x64x64, .f32⟩
  | .local _ .vmem, ⟨5, _⟩ => ⟨S128x64x64, .f32⟩
  | _, _ => ⟨S64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x288x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S262144x288_S75497472 : S262144x288.ShapeCasts S75497472
  shapeCasts_S64x32x64x64_S8388608 : S64x32x64x64.ShapeCasts S8388608
  bcast_S_S75497472 : S_.BroadcastsInDim S75497472 (![] : Fin 0 → Fin S75497472.rank)
  bcast_S75497472_S75497472x1_0 : S75497472.BroadcastsInDim S75497472x1 (![0] : Fin 1 → Fin S75497472x1.rank)
  shapeCasts_S75497472_S64x4096x288 : S75497472.ShapeCasts S64x4096x288
  transposes_S64x4096x288_S4096x288x64_1_2_0 : S64x4096x288.Transposes [1, 2, 0] S4096x288x64
  bitsLt_bf16_f32 : FTy.bits .bf16 < FTy.bits .f32
  inb_S128x64x288_S128x64x288_0_0_0 : ∀ a, (![0, 0, 0] : Fin 3 → Nat) a + S128x64x288.size a ≤ S128x64x288.size a
  h_S128x64x288 : 0 < S128x64x288.numel
  shapeCasts_S128x64x288_S128x64x288 : S128x64x288.ShapeCasts S128x64x288
  inb_S128x288x64_S128x288x64_0_0_0 : ∀ a, (![0, 0, 0] : Fin 3 → Nat) a + S128x288x64.size a ≤ S128x288x64.size a
  h_S128x288x64 : 0 < S128x288x64.numel
  shapeCasts_S128x288x64_S128x288x64 : S128x288x64.ShapeCasts S128x288x64
  inb_S128x64x64_S128x64x64_0_0_0 : ∀ a, (![0, 0, 0] : Fin 3 → Nat) a + S128x64x64.size a ≤ S128x64x64.size a
  h_S128x64x64 : 0 < S128x64x64.numel
  transposes_S4096x64x64_S64x64x4096_2_1_0 : S4096x64x64.Transposes [2, 1, 0] S64x64x4096
  gather_S8388608_S75497472x1_S75497472_n_0_n_n_0_1_1_wf : GatherDims.WF S8388608 S75497472x1 S75497472 [] [0] [] [0] [] 1 ![1]
  dot_S128x64x288_S128x288x64_S128x64x64_2_1_1_2_0_0_wf : DotDims.WF S128x64x288 S128x288x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x288.size a ≤ S4096x64x288.size a
  hwx0_0 : ∀ i : grid0.Coords, EltTy.bits .bf16 = 32 ∨ (Rect.block (s := S4096x64x288) S128x64x288.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x288x64.size a ≤ S4096x288x64.size a
  hwx0_1 : ∀ i : grid0.Coords, EltTy.bits .bf16 = 32 ∨ (Rect.block (s := S4096x288x64) S128x288x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .f32 = 32 ∨ (Rect.block (s := S4096x64x64) S128x64x64.size (cc0_transform_2 i) (hinb0_2 i)).WholeWords (EltTy.packing .f32)

variable [Facts₀]

def gather_S8388608_S75497472x1_S75497472_n_0_n_n_0_1_1 : GatherDims S8388608 S75497472x1 S75497472 where
  offsetDims := []
  collapsedSliceDims := [0]
  operandBatchingDims := []
  startIndicesBatchingDims := []
  startIndexMap := [0]
  indexVectorDim := 1
  sliceSizes := ![1]
  wf := gather_S8388608_S75497472x1_S75497472_n_0_n_n_0_1_1_wf
def dot_S128x64x288_S128x288x64_S128x64x64_2_1_1_2_0_0 : DotDims S128x64x288 S128x288x64 S128x64x64 where
  lhsContracting := [2]
  rhsContracting := [1]
  lhsNonContracting := [1]
  rhsNonContracting := [2]
  lhsBatch := [0]
  rhsBatch := [0]
  wf := dot_S128x64x288_S128x288x64_S128x64x64_2_1_1_2_0_0_wf

abbrev win0_0 : Pipeline.Window sig grid0 :=
  Pipeline.Window.ofSpec (Memref.whole main_v12) S128x64x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x288x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x64x64 : Shape := ⟨4, ![64, 32, 64, 64]⟩
abbrev S262144x288 : Shape := ⟨2, ![262144, 288]⟩
abbrev S4096x64x288 : Shape := ⟨3, ![4096, 64, 288]⟩
abbrev S75497472 : Shape := ⟨1, ![75497472]⟩
abbrev S8388608 : Shape := ⟨1, ![8388608]⟩
abbrev S_ : Shape := ⟨0, ![]⟩
abbrev S75497472x1 : Shape := ⟨2, ![75497472, 1]⟩
abbrev S64x4096x288 : Shape := ⟨3, ![64, 4096, 288]⟩
abbrev S4096x288x64 : Shape := ⟨3, ![4096, 288, 64]⟩
abbrev S4096x64x64 : Shape := ⟨3, ![4096, 64, 64]⟩
abbrev S64x64x4096 : Shape := ⟨3, ![64, 64, 4096]⟩

abbrev nBuf : Space → Nat
  | .hbm => 18
  | .vmem => 0
  | .smem => 0
  | _ => 0

abbrev bufTy : (tb : Table) → Fin (tcTables nBuf tb) → BufTy
  | .hbm, ⟨0, _⟩ => ⟨S64x32x64x64, .f32⟩
  | .hbm, ⟨1, _⟩ => ⟨S262144x288, .i32⟩
  | .hbm, ⟨2, _⟩ => ⟨S4096x64x288, .f32⟩
  | .hbm, ⟨3, _⟩ => ⟨S75497472, .i32⟩
  | .hbm, ⟨4, _⟩ => ⟨S8388608, .f32⟩
  | .hbm, ⟨5, _⟩ => ⟨S_, .i32⟩
  | .hbm, ⟨6, _⟩ => ⟨S75497472, .i32⟩
  | .hbm, ⟨7, _⟩ => ⟨S75497472, .i1⟩
  | .hbm, ⟨8, _⟩ => ⟨S_, .i32⟩
  | .hbm, ⟨9, _⟩ => ⟨S75497472, .i32⟩
  | .hbm, ⟨10, _⟩ => ⟨S75497472, .i32⟩
  | .hbm, ⟨11, _⟩ => ⟨S75497472, .i32⟩
  | .hbm, ⟨12, _⟩ => ⟨S75497472x1, .i32⟩
  | .hbm, ⟨13, _⟩ => ⟨S75497472, .f32⟩
  | .hbm, ⟨14, _⟩ => ⟨S64x4096x288, .f32⟩
  | .hbm, ⟨15, _⟩ => ⟨S4096x288x64, .f32⟩
  | .hbm, ⟨16, _⟩ => ⟨S4096x64x64, .f32⟩
  | .hbm, ⟨17, _⟩ => ⟨S64x64x4096, .f32⟩
  | _, _ => ⟨S64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S262144x288_S75497472 : S262144x288.ShapeCasts S75497472
  shapeCasts_S64x32x64x64_S8388608 : S64x32x64x64.ShapeCasts S8388608
  bcast_S_S75497472 : S_.BroadcastsInDim S75497472 (![] : Fin 0 → Fin S75497472.rank)
  bcast_S75497472_S75497472x1_0 : S75497472.BroadcastsInDim S75497472x1 (![0] : Fin 1 → Fin S75497472x1.rank)
  shapeCasts_S75497472_S64x4096x288 : S75497472.ShapeCasts S64x4096x288
  transposes_S64x4096x288_S4096x288x64_1_2_0 : S64x4096x288.Transposes [1, 2, 0] S4096x288x64
  transposes_S4096x64x64_S64x64x4096_2_1_0 : S4096x64x64.Transposes [2, 1, 0] S64x64x4096
  gather_S8388608_S75497472x1_S75497472_n_0_n_n_0_1_1_wf : GatherDims.WF S8388608 S75497472x1 S75497472 [] [0] [] [0] [] 1 ![1]
  dot_S4096x64x288_S4096x288x64_S4096x64x64_2_1_1_2_0_0_wf : DotDims.WF S4096x64x288 S4096x288x64 S4096x64x64 [2] [1] [1] [2] [0] [0]

variable [Facts₀]

def gather_S8388608_S75497472x1_S75497472_n_0_n_n_0_1_1 : GatherDims S8388608 S75497472x1 S75497472 where
  offsetDims := []
  collapsedSliceDims := [0]
  operandBatchingDims := []
  startIndicesBatchingDims := []
  startIndexMap := [0]
  indexVectorDim := 1
  sliceSizes := ![1]
  wf := gather_S8388608_S75497472x1_S75497472_n_0_n_n_0_1_1_wf
def dot_S4096x64x288_S4096x288x64_S4096x64x64_2_1_1_2_0_0 : DotDims S4096x64x288 S4096x288x64 S4096x64x64 where
  lhsContracting := [2]
  rhsContracting := [1]
  lhsNonContracting := [1]
  rhsNonContracting := [2]
  lhsBatch := [0]
  rhsBatch := [0]
  wf := dot_S4096x64x288_S4096x288x64_S4096x64x64_2_1_1_2_0_0_wf

class Facts : Prop extends Facts₀ where

variable [Facts]
-- ==== Proof.BlockProduct.lean ====
/-
  What the kernel body computes from the two blocks it loads: a block holds 128 pixels, and the body's one
  matrix-unit operation, accumulating into zero, multiplies pixel by pixel (the batch axis) the `64 × 288` weight
  matrix with the `288 × 64` matrix of gathered values. Read at an index `(p, k, b)` of the block it is the sum
  over the 288 contracted positions `c` of `w[p, k, c] · g[p, c, b]`.
-/
import proofs.«127894_j1563368095799_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx

/-- The dimension numbers of the body's product: batch axis 0 of both operands, the left operand's axis 2
    contracted with the right operand's axis 1. -/
abbrev D := dot_S128x64x288_S128x288x64_S128x64x64_2_1_1_2_0_0

theorem lhs_0 (i : S128x64x64.Idx) (q : D.contr.Idx) : (D.lhsIdx i q 0).val = (i 0).val := by
  unfold DotDims.lhsIdx
  rw [dif_pos (show (0 : Fin S128x64x288.rank) ∈ D.lhsBatch by decide)]
  rfl
theorem lhs_1 (i : S128x64x64.Idx) (q : D.contr.Idx) : (D.lhsIdx i q 1).val = (i 1).val := by
  unfold DotDims.lhsIdx
  rw [dif_neg (show ¬(1 : Fin S128x64x288.rank) ∈ D.lhsBatch by decide),
    dif_pos (show (1 : Fin S128x64x288.rank) ∈ D.lhsNonContracting by decide)]
  rfl
theorem lhs_2 (i : S128x64x64.Idx) (q : D.contr.Idx) : (D.lhsIdx i q 2).val = (q ⟨0, by decide⟩).val :=
  D.lhsIdx_val_of_single rfl i q
theorem rhs_0 (i : S128x64x64.Idx) (q : D.contr.Idx) : (D.rhsIdx i q 0).val = (i 0).val := by
  unfold DotDims.rhsIdx
  rw [dif_pos (show (0 : Fin S128x288x64.rank) ∈ D.rhsBatch by decide)]
  rfl
theorem rhs_1 (i : S128x64x64.Idx) (q : D.contr.Idx) : (D.rhsIdx i q 1).val = (q ⟨0, by decide⟩).val :=
  D.rhsIdx_val_of_single rfl i q
theorem rhs_2 (i : S128x64x64.Idx) (q : D.contr.Idx) : (D.rhsIdx i q 2).val = (i 2).val := by
  unfold DotDims.rhsIdx
  rw [dif_neg (show ¬(2 : Fin S128x288x64.rank) ∈ D.rhsBatch by decide),
    dif_pos (show (2 : Fin S128x288x64.rank) ∈ D.rhsNonContracting by decide)]
  rfl

/-- The body's stored value at `(p, k, b)`: the 288-term sum of products along the contracted axis, within
    pixel `p` of the block. -/
theorem pay_apply (w : Vec Ideal S128x64x288 .bf16) (g : Vec Ideal S128x288x64 .bf16)
    (p : Fin 128) (k : Fin 64) (b : Fin 64) :
    k0_pay1 (F := Ideal) w g (ix3 p k b) = ∑ c : Fin 288, w (ix3 p k c) * g (ix3 p c b) := by
  unfold k0_pay1
  rw [shapeCast_self, shapeCast_self]
  simp only [matmul]
  rw [Ideal.matmul_constant_zero_apply, ← Equiv.sum_comp (contrEquiv1 D 288 rfl rfl).symm]
  refine Finset.sum_congr rfl fun c _ => ?_
  have hc := contrEquiv1_symm_val D 288 rfl rfl c
  have el : D.lhsIdx (ix3 p k b) ((contrEquiv1 D 288 rfl rfl).symm c) = ix3 p k c := funext fun a => Fin.ext (by
    match a with
    | ⟨0, _⟩ => exact lhs_0 _ _
    | ⟨1, _⟩ => exact lhs_1 _ _
    | ⟨2, _⟩ => exact (lhs_2 _ _).trans hc)
  have er : D.rhsIdx (ix3 p k b) ((contrEquiv1 D 288 rfl rfl).symm c) = ix3 p c b := funext fun a => Fin.ext (by
    match a with
    | ⟨0, _⟩ => exact rhs_0 _ _
    | ⟨1, _⟩ => exact (rhs_1 _ _).trans hc
    | ⟨2, _⟩ => exact rhs_2 _ _)
  rw [el, er]

end Cert.KernelIdeal.BlockProduct

end
-- ==== Proof.PerPixel.lean ====
/-
  The function both programs compute after the gather: for every pixel `p` its own matrix product,
  `out[p, k, b] = ∑ c, W[p, k, c] · G[p, c, b]`, with `W : [4096, 64, 288]` the per-pixel weight matrices and
  `G : [4096, 288, 64]` the gathered image values laid pixel-major. Stated once, over the extended reals, index by
  index; a contraction of 288 terms, so no finiteness of the entries is needed to compare two spellings of it.
-/
import Idealize.ShloMosaic.PureOps.Ideal
import Idealize.ShloMosaic.Lib.ValueIdx

noncomputable section

namespace Cert.PerPixel

open Idealize.ShloMosaic Idealize.ShloMosaic.ValueIdx

/-- The weights: one `64 × 288` matrix per pixel. -/
abbrev SW : Shape := ⟨3, ![4096, 64, 288]⟩
/-- The gathered values: one `288 × 64` matrix per pixel. -/
abbrev SG : Shape := ⟨3, ![4096, 288, 64]⟩
/-- The products: one `64 × 64` matrix per pixel. -/
abbrev SO : Shape := ⟨3, ![4096, 64, 64]⟩

/-- The product of pixel `p`'s two matrices at row `k`, column `b`. -/
def entry (W : SW.Idx → EReal) (G : SG.Idx → EReal) (p : Fin 4096) (k : Fin 64) (b : Fin 64) : EReal :=
  ∑ c : Fin 288, W (ix3 p k c) * G (ix3 p c b)

/-- All the per-pixel products, as one array `[4096, 64, 64]`. -/
def products (W : SW.Idx → EReal) (G : SG.Idx → EReal) : SO.Idx → EReal :=
  fun i => entry W G (i 0) (i 1) (i 2)

theorem products_apply (W : SW.Idx → EReal) (G : SG.Idx → EReal) (p : Fin 4096) (k : Fin 64) (b : Fin 64) :
    products W G (ix3 p k b) = entry W G p k b := rfl

end Cert.PerPixel

end
-- ==== Proof.KernelArray.lean ====
/-
  From blocks to the array. Grid point `t` (of 32) works on pixels `128·t … 128·t + 127`: all three windows move
  together along the pixel axis and are whole on the other two. So what point `t` writes back is block `t` of
  the array of ALL per-pixel products of the two arrays the region is launched on, and the 32 blocks tile the
  4096 pixels: after the region the output array is that array of products.
-/
import proofs.«127894_j1563368095799_2_alg».proof.Proof.Gen.KernelIdeal.Frame
import proofs.«127894_j1563368095799_2_alg».proof.Proof.BlockProduct
import proofs.«127894_j1563368095799_2_alg».proof.Proof.PerPixel
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- The products of the weights and the gathered values as the region finds them. -/
abbrev whole (c : Dev nD) : S4096x64x64.Idx → EReal :=
  Cert.PerPixel.products (V m c main_v12) (V m c main_v11)

/-- The printed index maps over the grid: at point `t` every window is at block `t` of the pixel axis and at
    block 0 of the two others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the array of all per-pixel products. -/
theorem flushed_eq (c : Dev nD) (t : Fin cfg0.N) :
    (dats m 0 c).flushed 2 t = ((cfg0.win 2).blk t).view.read (Elt Ideal) (whole m c) := by
  show (cfg0.win 2).cut (grid0.coords t) ((dats m 0 c).after 2 t) = _
  rw [after0_2]
  unfold out0_2
  rw [View.canon_unit_zero hz]
  simp only [View.ld_unit_zero (S := S128x64x288) hz, View.ld_unit_zero (S := S128x288x64) hz]
  obtain ⟨a0, a1, a2, b0, b1, b2, o0, o1, o2⟩ := idx_facts t
  funext j
  obtain ⟨p, k, b, rfl⟩ : ∃ (p : Fin 128) (k : Fin 64) (b : Fin 64), j = ix3 p k b := ⟨j 0, j 1, j 2, eq_ix3 j⟩
  refine (Cert.KernelIdeal.BlockProduct.pay_apply (iblk m c 0 t) (iblk m c 1 t) p k b).trans ?_
  have ht : t.val < 32 := lt_of_lt_of_eq t.isLt N_0
  have hp : t.val * 128 + p.val < 4096 := by have := p.isLt; omega
  -- entry `(p, k, b)` of block `t` is entry `(128·t + p, k, b)` of the array, in each of the three windows
  have e2 : ((cfg0.win 2).blk t).view.emb (ix3 p k b) = (ix3 ⟨t.val * 128 + p.val, hp⟩ k b : S4096x64x64.Idx) := by
    funext a; apply Fin.ext
    match a with
    | ⟨0, _⟩ => show win0_2.index t (0 : Fin 3) * 128 + 1 * p.val = t.val * 128 + p.val; omega
    | ⟨1, _⟩ => show win0_2.index t (1 : Fin 3) * 64 + 1 * k.val = k.val; omega
    | ⟨2, _⟩ => show win0_2.index t (2 : Fin 3) * 64 + 1 * b.val = b.val; omega
  show _ = whole m c (((cfg0.win 2).blk t).view.emb (ix3 p k b))
  rw [e2]
  show _ = Cert.PerPixel.entry (V m c main_v12) (V m c main_v11) ⟨t.val * 128 + p.val, hp⟩ k b
  unfold Cert.PerPixel.entry
  refine Finset.sum_congr rfl fun q _ => ?_
  have e0 : ((cfg0.win 0).blk t).view.emb (ix3 p k q) = (ix3 ⟨t.val * 128 + p.val, hp⟩ k q : S4096x64x288.Idx) := by
    funext a; apply Fin.ext
    match a with
    | ⟨0, _⟩ => show win0_0.index t (0 : Fin 3) * 128 + 1 * p.val = t.val * 128 + p.val; omega
    | ⟨1, _⟩ => show win0_0.index t (1 : Fin 3) * 64 + 1 * k.val = k.val; omega
    | ⟨2, _⟩ => show win0_0.index t (2 : Fin 3) * 288 + 1 * q.val = q.val; omega
  have e1 : ((cfg0.win 1).blk t).view.emb (ix3 p q b) = (ix3 ⟨t.val * 128 + p.val, hp⟩ q b : S4096x288x64.Idx) := by
    funext a; apply Fin.ext
    match a with
    | ⟨0, _⟩ => show win0_1.index t (0 : Fin 3) * 128 + 1 * p.val = t.val * 128 + p.val; omega
    | ⟨1, _⟩ => show win0_1.index t (1 : Fin 3) * 288 + 1 * q.val = q.val; omega
    | ⟨2, _⟩ => show win0_1.index t (2 : Fin 3) * 64 + 1 * b.val = b.val; omega
  exact congrArg₂ (fun x y : EReal => x * y) (congrArg (V m c main_v12) e0) (congrArg (V m c main_v11) e1)

/-- An index of the output array is in point `t`'s block iff each coordinate is in the block's range on its axis. -/
theorem mem_blk (t : Fin cfg0.N) (i : S4096x64x64.Idx) :
    i ∈ ((cfg0.win 2).blk t).view.set ↔ ∀ a : Fin 3, win0_2.index t a * S128x64x64.size a ≤ (i a).val ∧ (i a).val < win0_2.index t a * S128x64x64.size a + S128x64x64.size a := by
  show i ∈ ((View.whole main_v13).slice (win0_2.rect t)).set ↔ _
  rw [View.set_slice_whole, Rect.mem_set_unit]
  exact Iff.rfl

/-- Every index of the output array is in the block of the point its pixel belongs to, `t = pixel / 128`. -/
theorem cover (i : S4096x64x64.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  have hi2 : (i 2).val < 64 := (i 2).isLt
  have hN : (i 0).val / 128 < cfg0.N := lt_of_lt_of_eq (by omega : (i 0).val / 128 < 32) N_0.symm
  refine ⟨⟨(i 0).val / 128, hN⟩, flush0_2 _, ?_⟩
  obtain ⟨-, -, -, -, -, -, o0, o1, o2⟩ := idx_facts ⟨(i 0).val / 128, hN⟩
  have o0' : win0_2.index ⟨(i 0).val / 128, hN⟩ (0 : Fin 3) = (i 0).val / 128 := o0
  rw [mem_blk]
  intro a
  match a with
  | ⟨0, _⟩ => show win0_2.index ⟨(i 0).val / 128, hN⟩ (0 : Fin 3) * 128 ≤ (i 0).val ∧ (i 0).val < win0_2.index ⟨(i 0).val / 128, hN⟩ (0 : Fin 3) * 128 + 128; omega
  | ⟨1, _⟩ => show win0_2.index ⟨(i 0).val / 128, hN⟩ (1 : Fin 3) * 64 ≤ (i 1).val ∧ (i 1).val < win0_2.index ⟨(i 0).val / 128, hN⟩ (1 : Fin 3) * 64 + 64; omega
  | ⟨2, _⟩ => show win0_2.index ⟨(i 0).val / 128, hN⟩ (2 : Fin 3) * 64 ≤ (i 2).val ∧ (i 2).val < win0_2.index ⟨(i 0).val / 128, hN⟩ (2 : Fin 3) * 64 + 64; omega

/-- The output array after the region: all the per-pixel products. -/
theorem final (c : Dev nD) : (dats m 0 c).arrAt 2 cfg0.N = whole m c :=
  (dats m 0 c).arrAt_eq_of_cover 2 (whole m c) (fun t _ => flushed_eq m c t) cover

end Cert.KernelIdeal.Array

end
-- ==== Proof.HostGlue.lean ====
/-
  The host lines before the region. Both programs start with the same lines: the hash table's rows flattened to
  one list of indices, negative indices wrapped by the image's size, the flattened image gathered through them, the
  result laid as `[64, 4096, 288]` and transposed to pixel-major `[4096, 288, 64]`. The kernel's program then only
  changes the number format of that array and of the weights, which on the extended reals changes nothing. So the
  region is launched on the weights as given and on the very array the reference multiplies by.
-/
import proofs.«127894_j1563368095799_2_alg».proof.Proof.Gen.KernelIdeal.Frame
import proofs.«127894_j1563368095799_2_alg».proof.Proof.Gen.ReferenceIdeal.Read
import Idealize.ShloMosaic.Lib.StableHlo.Run

noncomputable section

namespace Cert.KernelIdeal.HostGlue

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

/-- The gathered image values, pixel-major: the reference's own stage, of the kernel program's arguments. -/
abbrev gathered (c : Dev nD) : Cert.ReferenceIdeal.S4096x288x64.Idx → EReal :=
  Cert.ReferenceIdeal.Read.val_main_v10 (F := Ideal) (m ((c : Thread nD τ).loc main_arg0)) (m ((c : Thread nD τ).loc main_arg1))

/-- The region finds the weights as launched. -/
theorem V_weights (c : Dev nD) :
    (V m c main_v12 : S4096x64x288.Idx → EReal) = m ((c : Thread nD τ).loc main_arg2) := by
  show StableHlo.after hostOps0 (fun b => m (c, b)) (Proc.devRef .tc main_v12) = _
  after_results
  rfl

/-- The region finds, as its second operand, the gathered values laid pixel-major. -/
theorem V_gathered (c : Dev nD) :
    (V m c main_v11 : S4096x288x64.Idx → EReal) = gathered m c := by
  show StableHlo.after hostOps0 (fun b => m (c, b)) (Proc.devRef .tc main_v11) = _
  after_results
  rfl

end Cert.KernelIdeal.HostGlue

end
-- ==== Proof.KernelResult.lean ====
/-
  The kernel program's result. After the region the one remaining host line transposes the array of per-pixel
  products `[4096, 64, 64]` (pixel, kernel, batch) to `[64, 64, 4096]` (batch, kernel, pixel). With the array the
  region leaves (all per-pixel products of the weights and the gathered values) this names the program's
  result as one function of its arguments.
-/
import proofs.«127894_j1563368095799_2_alg».proof.Proof.Gen.KernelIdeal.Frame
import proofs.«127894_j1563368095799_2_alg».proof.Proof.KernelArray
import proofs.«127894_j1563368095799_2_alg».proof.Proof.HostGlue
import Idealize.ShloMosaic.Lib.StableHlo.Run

noncomputable section

namespace Cert.KernelIdeal.Result

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg)

/-- The result: the per-pixel products of the weights as given and the gathered values, batch-major. -/
abbrev result (c : Dev nD) : S64x64x4096.Idx → EReal :=
  transpose S64x64x4096 [2, 1, 0]
    (Cert.PerPixel.products (m ((c : Thread nD τ).loc main_arg2)) (Cert.KernelIdeal.HostGlue.gathered m c))
    transposes_S4096x64x64_S64x64x4096_2_1_0

/-- The line after the region, applied to what the region left. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  -- the region's output array is the array of all per-pixel products, of the weights as given and the gathered values
  have hA : Pipeline.withArrays (cfgs 0).spec c (V0 m c) (fun w => (dats m 0 c).arrAt w (cfgs 0).N) (Proc.devRef .tc main_v13)
      = Cert.PerPixel.products (m ((c : Thread nD τ).loc main_arg2)) (Cert.KernelIdeal.HostGlue.gathered m c) :=
    (Pipeline.withArrays_arr spec0 launch0.win.arr_inj c _ _ 2).trans
      ((Cert.KernelIdeal.Array.final m c).trans
        (congrArg₂ Cert.PerPixel.products (Cert.KernelIdeal.HostGlue.V_weights m c) (Cert.KernelIdeal.HostGlue.V_gathered m c)))
  exact congrArg (fun A => transpose S64x64x4096 [2, 1, 0] A transposes_S4096x64x64_S64x64x4096_2_1_0) hA

/-- The kernel program's run with its result named: every weakly fair execution terminates with the result array at
    the batch-major per-pixel products and the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v14 (Pipeline.mem_restRefs_of main_v14 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Result

end
-- ==== Proof.RefResult.lean ====
/-
  The reference's result. Its one `dot_general` has the pixel axis as batch axis and contracts the 288 gathered
  positions: read at an index it is the per-pixel product, so the reference's result is the array of all
  per-pixel products of the weights and the gathered values, transposed to batch-major.
-/
import proofs.«127894_j1563368095799_2_alg».proof.Proof.Gen.ReferenceIdeal.Read
import proofs.«127894_j1563368095799_2_alg».proof.Proof.PerPixel

noncomputable section

namespace Cert.ReferenceIdeal.RefResult

open Cert.ReferenceIdeal Cert.ReferenceIdeal.Gen Cert.ReferenceIdeal.Read Idealize.ShloMosaic Idealize.ShloMosaic.ValueIdx

/-- The reference's batched product is the array of per-pixel products. -/
theorem dot_eq (x0 : (⟨S64x32x64x64, .f32⟩ : BufTy).Contents (Elt Ideal)) (x1 : (⟨S262144x288, .i32⟩ : BufTy).Contents (Elt Ideal))
    (x2 : (⟨S4096x64x288, .f32⟩ : BufTy).Contents (Elt Ideal)) :
    val_main_v11 (F := Ideal) x0 x1 x2 = Cert.PerPixel.products x2 (val_main_v10 (F := Ideal) x0 x1) := by
  funext i
  obtain ⟨p, k, b, rfl⟩ : ∃ (p : Fin 4096) (k : Fin 64) (b : Fin 64), i = ix3 p k b := ⟨i 0, i 1, i 2, eq_ix3 i⟩
  rw [val_main_v11_apply, Cert.PerPixel.products_apply]
  unfold Cert.PerPixel.entry
  refine Finset.sum_congr rfl fun c _ => ?_
  have el : lidx_main_v11 (ix3 p k b) c = ix3 p k c := funext fun a => Fin.ext (by
    match a with
    | ⟨0, _⟩ => rfl
    | ⟨1, _⟩ => rfl
    | ⟨2, _⟩ => rfl)
  have er : ridx_main_v11 (ix3 p k b) c = ix3 p c b := funext fun a => Fin.ext (by
    match a with
    | ⟨0, _⟩ => rfl
    | ⟨1, _⟩ => rfl
    | ⟨2, _⟩ => rfl)
  rw [el, er]

/-- The reference's result: the per-pixel products, batch-major. -/
theorem result_eq (x0 : (⟨S64x32x64x64, .f32⟩ : BufTy).Contents (Elt Ideal)) (x1 : (⟨S262144x288, .i32⟩ : BufTy).Contents (Elt Ideal))
    (x2 : (⟨S4096x64x288, .f32⟩ : BufTy).Contents (Elt Ideal)) :
    val_main_v12 (F := Ideal) x0 x1 x2
      = transpose S64x64x4096 [2, 1, 0] (Cert.PerPixel.products x2 (val_main_v10 (F := Ideal) x0 x1))
          transposes_S4096x64x64_S64x64x4096_2_1_0 := by
  unfold val_main_v12
  rw [dot_eq]

end Cert.ReferenceIdeal.RefResult

end
-- ==== Proof.lean ====
/-
  The claim: a per-pixel batched matrix product over hash-gathered image values, tiled 128 pixels to a grid
  point on the matrix unit, against one `einsum('pkc,pcb->pkb')` — equal on the extended reals.

  Both programs first gather the flattened image through the flattened hash table (negative indices wrapped),
  lay the result as `[64, 4096, 288]` and transpose it pixel-major, `G : [4096, 288, 64]`; both end by
  transposing `[4096, 64, 64]` to `[64, 64, 4096]`. In between the reference contracts the weights
  `W : [4096, 64, 288]` with `G` over the 288 gathered positions, pixel by pixel; the kernel program narrows both
  operands to a 16-bit format (the identity on the extended reals) and has 32 grid points each multiply the 128
  pixels of its block into a zero accumulator. Index by index both are
  `out[b, k, p] = ∑ c, W[p, k, c] · G[p, c, b]`: the same 288 products in the same order, so no law of the
  extended reals beyond `0 + s = s` is used and the finiteness precondition is never opened.

  The modules: `PerPixel` states the products; `BlockProduct` reads the body's stored value at an index of a
  block; `KernelArray` goes from the 32 blocks to the output array; `HostGlue` reads what the region is launched
  on; `KernelResult` adds the closing transpose and names the kernel program's result; `RefResult` reads the
  reference's result as the same function. The frames of the two kernel programs and the reference's run are the
  generated ones; the idealized kernel program is the kernel program's own text, no operation rewritten, so the
  preservation claim is trivial.
-/
import proofs.«127894_j1563368095799_2_alg».proof.Defs
import proofs.«127894_j1563368095799_2_alg».proof.Proof.Gen.Kernel
import proofs.«127894_j1563368095799_2_alg».proof.Proof.Gen.Kernel.Skeleton
import proofs.«127894_j1563368095799_2_alg».proof.Proof.Gen.Kernel.Launch
import proofs.«127894_j1563368095799_2_alg».proof.Proof.Gen.Kernel.Points
import proofs.«127894_j1563368095799_2_alg».proof.Proof.Gen.Kernel.Frame
import proofs.«127894_j1563368095799_2_alg».proof.Proof.Gen.KernelIdeal
import proofs.«127894_j1563368095799_2_alg».proof.Proof.Gen.KernelIdeal.Skeleton
import proofs.«127894_j1563368095799_2_alg».proof.Proof.Gen.KernelIdeal.Launch
import proofs.«127894_j1563368095799_2_alg».proof.Proof.Gen.KernelIdeal.Points
import proofs.«127894_j1563368095799_2_alg».proof.Proof.Gen.KernelIdeal.Frame
import proofs.«127894_j1563368095799_2_alg».proof.Proof.Gen.ReferenceIdeal
import proofs.«127894_j1563368095799_2_alg».proof.Proof.Gen.Pre_finite_inputs
import proofs.«127894_j1563368095799_2_alg».proof.Proof.Gen.ReferenceIdeal.Run
import proofs.«127894_j1563368095799_2_alg».proof.Proof.Gen.ReferenceIdeal.Read
import proofs.«127894_j1563368095799_2_alg».proof.Proof.KernelResult
import proofs.«127894_j1563368095799_2_alg».proof.Proof.RefResult
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the batch-major per-pixel products of the
    weights and the gathered image values. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefResult.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
